-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x16 : Shape := ⟨2, ![2048, 16]⟩
abbrev S16x2048 : Shape := ⟨2, ![16, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S4x4096x2048 .f32) (main_arg1 : FVec F S2048x16 .f32) (main_arg2 : FVec F S16x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S16x2048 .f32 := Host.absf main_arg2
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  main_v13
-- ==== Kernel.lean ====
abbrev S4x4096x2048 : Shape := ⟨3, ![4, 4096, 2048]⟩
abbrev S2048x16 : Shape := ⟨2, ![2048, 16]⟩
abbrev S16x2048 : Shape := ⟨2, ![16, 2048]⟩
abbrev S16384x2048 : Shape := ⟨2, ![16384, 2048]⟩
abbrev S1024x2048 : Shape := ⟨2, ![1024, 2048]⟩
abbrev S1024x16 : Shape := ⟨2, ![1024, 16]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x16, .f32⟩
  | .hbm, ⟨2, _⟩ => ⟨S16x2048, .f32⟩
  | .hbm, ⟨3, _⟩ => ⟨S16384x2048, .f32⟩
  | .hbm, ⟨4, _⟩ => ⟨S16x2048, .f32⟩
  | .hbm, ⟨5, _⟩ => ⟨S16384x2048, .f32⟩
  | .hbm, ⟨6, _⟩ => ⟨S4x4096x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1024x2048, .f32⟩
  | .local _ .vmem, ⟨5, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x2048_S16384x2048 : S4x4096x2048.ShapeCasts S16384x2048
  transposes_S2048x16_S16x2048_1_0 : S2048x16.Transposes [1, 0] S16x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  shapeCasts_S16384x2048_S4x4096x2048 : S16384x2048.ShapeCasts S4x4096x2048
  dot_S1024x2048_S16x2048_S1024x16_1_1_0_0_n_n_wf : DotDims.WF S1024x2048 S16x2048 S1024x16 [1] [1] [0] [0] [] []
  dot_S1024x16_S16x2048_S1024x2048_1_0_0_1_n_n_wf : DotDims.WF S1024x16 S16x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

def dot_S1024x2048_S16x2048_S1024x16_1_1_0_0_n_n : DotDims S1024x2048 S16x2048 S1024x16 where
  lhsContracting := [1]
  rhsContracting := [1]
  lhsNonContracting := [0]
  rhsNonContracting := [0]
  lhsBatch := []
  rhsBatch := []
  wf := dot_S1024x2048_S16x2048_S1024x16_1_1_0_0_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x16 : Shape := ⟨2, ![2048, 16]⟩
abbrev S16x2048 : Shape := ⟨2, ![16, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x16, .f32⟩
  | .hbm, ⟨2, _⟩ => ⟨S16x2048, .f32⟩
  | .hbm, ⟨3, _⟩ => ⟨S2048x2048, .f32⟩
  | .hbm, ⟨4, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2048x16_S16x2048_S2048x2048_1_0_0_1_n_n_wf : DotDims.WF S2048x16 S16x2048 S2048x2048 [1] [0] [0] [1] [] []
  dot_S4x4096x2048_S2048x2048_S4x4096x2048_2_1_01_0_n_n_wf : DotDims.WF S4x4096x2048 S2048x2048 S4x4096x2048 [2] [1] [0, 1] [0] [] []

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.LibMatmulRows.lean ====
/-
  A matrix product with the right operand given by rows, read at an entry. For dimension numbers that contract the
  left operand's axis 1 with the right operand's axis 1 and have no batch axis, the product of an [A, K] and a [B, K]
  array accumulated into the zero splat has, at `(p, q)`, the value `∑ k, lhs (p, k) * rhs (q, k)` on the extended
  reals; for any sizes A, K, B and any two float formats of the operands (a change of format is the identity on the
  extended reals).
-/
import Idealize.ShloMosaic.PureOps.Ideal.Laws
import Idealize.ShloMosaic.Lib.ValueIdx

noncomputable section

open scoped BigOperators
open Idealize.ShloMosaic Idealize.ShloMosaic.ValueIdx

namespace MatmulRows

/-- The matrix product `lhs · rhsᵀ` into a zero accumulator at entry `(p, q)`. -/
theorem matmul_zero_apply {A K B : Nat} {φ₁ φ₂ : FTy}
    (d : DotDims ⟨2, ![A, K]⟩ ⟨2, ![B, K]⟩ ⟨2, ![A, B]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![A, K]⟩ φ₁) (rhs : FVec Ideal ⟨2, ![B, K]⟩ φ₂) (p : Fin A) (q : Fin B) :
    matmul d prec lhs rhs (constant ⟨2, ![A, B]⟩ .f32 0x00000000#32) (ix2 p q)
      = ∑ k : Fin K, lhs (ix2 p k) * rhs (ix2 q k) := by
  obtain ⟨lc, rc, ln, rn, lb, rb, wf⟩ := d
  simp only at hlc hrc hln hrn hlb hrb
  subst hlc hrc hln hrn hlb hrb
  let D : DotDims ⟨2, ![A, K]⟩ ⟨2, ![B, K]⟩ ⟨2, ![A, B]⟩ := ⟨[1], [1], [0], [0], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = q.val := by
    unfold DotDims.rhsIdx
    rw [dif_neg (show ¬(0 : Fin 2) ∈ ([] : List (Fin 2)) from List.not_mem_nil),
      dif_pos (show (0 : Fin 2) ∈ ([0] : List (Fin 2)) from List.mem_singleton.mpr rfl)]
    rfl
  have r1 : (D.rhsIdx (ix2 p q) ((contrEquiv1 D K rfl rfl).symm k) (1 : Fin 2)).val = k.val :=
    (D.rhsIdx_val_of_single rfl (ix2 p q) _).trans hk
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 q k := funext fun a => Fin.ext (by
    match a with
    | ⟨0, _⟩ => exact r0
    | ⟨1, _⟩ => exact r1)
  rw [el, er]

end MatmulRows

end
-- ==== Proof.Body.lean ====
/-
  The kernel body's arithmetic at an entry. On a block x of 1024 rows of the flattened h, with B and Aᵀ whole
  (each [16, 2048]), the body forms  tmp (p, r) = ∑ k, x (p, k) * B (r, k)  (B given by rows) and then
  out (p, q) = ∑ r, tmp (p, r) * Aᵀ (r, q): the bottleneck grouping on one block of rows.
-/
import proofs.«105709_j47991964566282_2_alg».proof.Proof.Gen.KernelIdeal.Skeleton
import proofs.«105709_j47991964566282_2_alg».proof.Proof.LibMatmulPlain
import proofs.«105709_j47991964566282_2_alg».proof.Proof.LibMatmulRows
import Idealize.ShloMosaic.Lib.Pipeline.Value

noncomputable section

open scoped BigOperators
open Idealize.ShloMosaic Idealize.ShloMosaic.ValueIdx

namespace Cert.KernelIdeal.Body

open Cert.KernelIdeal Cert.KernelIdeal.Gen

/-- What the body stores, at row p and column q of its block. -/
theorem stored_apply (x : Vec Ideal S1024x2048 .f32) (b : Vec Ideal S16x2048 .f32) (at' : Vec Ideal S16x2048 .f32)
    (p : Fin 1024) (q : Fin 2048) :
    k0_pay1 (F := Ideal) x b at' (ix2 p q)
      = ∑ r : Fin 16, (∑ k : Fin 2048, x (ix2 p k) * b (ix2 r k)) * at' (ix2 r q) := by
  unfold k0_pay1
  rw [shapeCast_self, shapeCast_self]
  refine (MatmulPlain.matmul_zero_apply _ rfl rfl rfl rfl rfl rfl _ _ _ p q).trans ?_
  refine Finset.sum_congr rfl fun r _ => ?_
  rw [MatmulRows.matmul_zero_apply _ rfl rfl rfl rfl rfl rfl _ _ _ p r]

end Cert.KernelIdeal.Body

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.LibRegroup.lean ====
/-
  Regrouping a double sum through a bottleneck. Over two finite index types, for entries that are real numbers,

      ∑ r, (∑ k, x k * b r k) * a r  =  ∑ k, x k * ∑ r, a r * b r k :

  both sides are the double sum of x k * b r k * a r. The step moves a factor across a sum and exchanges the two sums;
  on the extended reals a factor distributes over a sum only away from the infinities, hence the hypothesis that every
  entry is the image of a real, and the proof in ℝ. This is the identity behind factoring a product with a low-rank
  matrix, (x · bᵀ) · a = x · (a · b)ᵀ, read at one entry.
-/
import proofs.«105709_j47991964566282_2_alg».proof.Proof.LibRealValued

noncomputable section

open scoped BigOperators
open Cert.RealValued

namespace Cert.Lib.Regroup

/-- For real entries, ∑ r, (∑ k, x k * b r k) * a r = ∑ k, x k * ∑ r, a r * b r k. -/
theorem regroup {ι κ : Type} [Fintype ι] [Fintype κ] (x : κ → EReal) (b : ι → κ → EReal) (a : ι → EReal)
    (hx : ∀ k, IsReal (x k)) (hb : ∀ r k, IsReal (b r k)) (ha : ∀ r, IsReal (a r)) :
    ∑ r, (∑ k, x k * b r k) * a r = ∑ k, x k * ∑ r, a r * b r k := by
  choose x' ex using hx
  choose b' eb using hb
  choose a' ea using ha
  have L : ∑ r, (∑ k, x k * b r k) * a r = ((∑ r, (∑ k, x' k * b' r k) * a' r : ℝ) : EReal) := by
    rw [coe_sum]
    refine Finset.sum_congr rfl fun r _ => ?_
    rw [EReal.coe_mul, coe_sum, ea r]
    congr 1
    refine Finset.sum_congr rfl fun k _ => ?_
    rw [EReal.coe_mul, ex k, eb r k]
  have R : ∑ k, x k * ∑ r, a r * b r k = ((∑ k, x' k * ∑ r, a' r * b' r k : ℝ) : EReal) := by
    rw [coe_sum]
    refine Finset.sum_congr rfl fun k _ => ?_
    rw [EReal.coe_mul, coe_sum, ex k]
    congr 1
    refine Finset.sum_congr rfl fun r _ => ?_
    rw [EReal.coe_mul, ea r, eb r k]
  rw [L, R]
  congr 1
  simp only [Finset.sum_mul, Finset.mul_sum]
  rw [Finset.sum_comm]
  exact Finset.sum_congr rfl fun k _ => Finset.sum_congr rfl fun r _ => by ring

end Cert.Lib.Regroup

end
-- ==== Proof.LowRank.lean ====
/-
  The low-rank adapter map  out = h · (A · B)ᵀ  on the extended reals, in its two groupings.

  For h of shape [4, 4096, 2048], A of shape [2048, 16] and B of shape [16, 2048], entry (b, s, e) of the result is

      dense      :  ∑ k, h (b, s, k) * (∑ r, A (e, r) * B (r, k))          -- form the 2048 × 2048 matrix A · B first
      throughRank:  ∑ r, (∑ k, h (b, s, k) * B (r, k)) * A (e, r)          -- pass through the rank-16 bottleneck

  Both are the double sum of h (b, s, k) * B (r, k) * A (e, r) over k and r. To pass from one to the other a factor
  is moved across a sum and two sums are exchanged; on the extended reals a factor distributes over a sum only away
  from the infinities, so the two groupings are identified for entries that are real numbers.
-/
import Idealize.ShloMosaic.PureOps.Ideal.Laws
import Idealize.ShloMosaic.Lib.ValueIdx
import proofs.«105709_j47991964566282_2_alg».proof.Proof.LibRegroup

noncomputable section

open scoped BigOperators
open Idealize.ShloMosaic Idealize.ShloMosaic.ValueIdx Cert.RealValued

namespace Cert.LowRank

/-- The result with the dense matrix A · B formed first. -/
def dense (h : (⟨3, ![4, 4096, 2048]⟩ : Shape).Idx → EReal) (A : (⟨2, ![2048, 16]⟩ : Shape).Idx → EReal)
    (B : (⟨2, ![16, 2048]⟩ : Shape).Idx → EReal) : (⟨3, ![4, 4096, 2048]⟩ : Shape).Idx → EReal :=
  fun i => ∑ k : Fin 2048, h (ix3 (i 0) (i 1) k) * ∑ r : Fin 16, A (ix2 (i 2) r) * B (ix2 r k)

/-- The result passed through the rank-16 bottleneck. -/
def throughRank (h : (⟨3, ![4, 4096, 2048]⟩ : Shape).Idx → EReal) (A : (⟨2, ![2048, 16]⟩ : Shape).Idx → EReal)
    (B : (⟨2, ![16, 2048]⟩ : Shape).Idx → EReal) : (⟨3, ![4, 4096, 2048]⟩ : Shape).Idx → EReal :=
  fun i => ∑ r : Fin 16, (∑ k : Fin 2048, h (ix3 (i 0) (i 1) k) * B (ix2 r k)) * A (ix2 (i 2) r)

/-- On real entries the two groupings are one array. -/
theorem throughRank_eq_dense (h : (⟨3, ![4, 4096, 2048]⟩ : Shape).Idx → EReal)
    (A : (⟨2, ![2048, 16]⟩ : Shape).Idx → EReal) (B : (⟨2, ![16, 2048]⟩ : Shape).Idx → EReal)
    (hh : ∀ i, IsReal (h i)) (hA : ∀ i, IsReal (A i)) (hB : ∀ i, IsReal (B i)) :
    throughRank h A B = dense h A B :=
  funext fun i => Cert.Lib.Regroup.regroup (fun k => h (ix3 (i 0) (i 1) k)) (fun r k => B (ix2 r k)) (fun r => A (ix2 (i 2) r))
    (fun _ => hh _) (fun _ _ => hB _) (fun _ => hA _)

end Cert.LowRank

end
-- ==== Proof.Rows.lean ====
/-
  The flattened form of the adapter map. With x the array h flattened to [16384, 2048] (row b * 4096 + s is h (b, s, ·))
  and Aᵀ the transpose of A, the array

      rows x B Aᵀ (R, q) = ∑ r, (∑ k, x (R, k) * B (r, k)) * Aᵀ (r, q)

  reshaped to [4, 4096, 2048] is the bottleneck grouping of the adapter map: entry (b, s, e) sits at row b * 4096 + s,
  column e, and Aᵀ (r, e) is A (e, r).
-/
import proofs.«105709_j47991964566282_2_alg».proof.KernelIdeal
import proofs.«105709_j47991964566282_2_alg».proof.Proof.LowRank
import Idealize.ShloMosaic.Lib.Pipeline.Value

noncomputable section

open scoped BigOperators

namespace Cert.KernelIdeal.Rows

open Cert.KernelIdeal Idealize.ShloMosaic Idealize.ShloMosaic.ValueIdx

/-- The flattened result as one function of the flattened h, of B and of Aᵀ. -/
def rows (x : S16384x2048.Idx → EReal) (b : S16x2048.Idx → EReal) (at' : S16x2048.Idx → EReal) : S16384x2048.Idx → EReal :=
  fun i => ∑ r : Fin 16, (∑ k : Fin 2048, x (ix2 (i 0) k) * b (ix2 r k)) * at' (ix2 r (i 1))

/-- `rows` of the flattened h, of B and of the transposed A, reshaped back, is the bottleneck grouping. -/
theorem reshaped_rows (h : S4x4096x2048.Idx → EReal) (A : S2048x16.Idx → EReal) (B : S16x2048.Idx → EReal)
    (hflat : S4x4096x2048.ShapeCasts S16384x2048) (htr : S2048x16.Transposes [1, 0] S16x2048)
    (hback : S16384x2048.ShapeCasts S4x4096x2048) :
    shapeCast S4x4096x2048 (rows (shapeCast S16384x2048 h hflat) B (transpose S16x2048 [1, 0] A htr)) hback
      = Cert.LowRank.throughRank h A B := by
  funext i
  obtain ⟨b, s, e, rfl⟩ : ∃ (b : Fin 4) (s : Fin 4096) (e : Fin 2048), i = ix3 b s e := ⟨i 0, i 1, i 2, eq_ix3 i⟩
  have hb := b.isLt
  have hs := s.isLt
  let R : Fin 16384 := ⟨b.val * 4096 + s.val, by omega⟩
  rw [shapeCast_apply _ hback (ix3 b s e) (ix2 R e) (by
    rw [Shape.rowMajor_val_two, Shape.rowMajor_val_three]
    show (b.val * 4096 + s.val) * 2048 + e.val = (b.val * 4096 + s.val) * 2048 + e.val
    rfl)]
  unfold rows Cert.LowRank.throughRank
  refine Finset.sum_congr rfl fun r _ => ?_
  have ea : transpose S16x2048 [1, 0] A htr (ix2 r e) = A (ix2 e r) :=
    transpose_apply [1, 0] A htr (ix2 r e) (ix2 e r) (fun a => by
      match a with
      | ⟨0, _⟩ => rfl
      | ⟨1, _⟩ => rfl)
  have ex : ∀ k : Fin 2048, shapeCast S16384x2048 h hflat (ix2 R k) = h (ix3 b s k) := fun k =>
    shapeCast_apply h hflat (ix2 R k) (ix3 b s k) (by
      rw [Shape.rowMajor_val_two, Shape.rowMajor_val_three]
      show (b.val * 4096 + s.val) * 2048 + k.val = (b.val * 4096 + s.val) * 2048 + k.val
      rfl)
  show (∑ k : Fin 2048, shapeCast S16384x2048 h hflat (ix2 R k) * B (ix2 r k)) * transpose S16x2048 [1, 0] A htr (ix2 r e)
    = (∑ k : Fin 2048, h (ix3 b s k) * B (ix2 r k)) * A (ix2 e r)
  rw [ea]
  refine congrArg (· * A (ix2 e r)) ?_
  exact Finset.sum_congr rfl fun k _ => by rw [ex k]

end Cert.KernelIdeal.Rows

end
-- ==== Proof.KernelSide.lean ====
/-
  The kernel's result array. The wrapper flattens h to x of shape [16384, 2048] (row b * 4096 + s is h (b, s, ·)) and
  transposes A to Aᵀ of shape [16, 2048]; grid point t works on rows t * 1024 … t * 1024 + 1023 of x with B and Aᵀ whole,
  and writes the same rows of the flattened result. So the flattened result is, row by row,

      rows x B Aᵀ (R, q) = ∑ r, (∑ k, x (R, k) * B (r, k)) * Aᵀ (r, q),

  and the program's result is that array reshaped to [4, 4096, 2048]: the bottleneck grouping of the adapter map.
-/
import proofs.«105709_j47991964566282_2_alg».proof.Proof.Gen.KernelIdeal.Frame
import proofs.«105709_j47991964566282_2_alg».proof.Proof.Body
import proofs.«105709_j47991964566282_2_alg».proof.Proof.Rows
import Idealize.ShloMosaic.Lib.Pipeline.Value
import Idealize.ShloMosaic.Lib.StableHlo.Run

noncomputable section

open scoped BigOperators

namespace Cert.KernelIdeal.Rows

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

theorem zeros : (![0, 0] : Fin 2 → Nat) = fun _ => 0 := funext fun a => by fin_cases a <;> rfl

/-- The block index maps over the grid: the h block and the output block of point t are row block t, all columns;
    B and Aᵀ are staged whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of the flattened h is row t * 1024 + p of the array. -/
theorem read_x (c : Dev nD) (t : Fin cfg0.N) (p : Fin 1024) (k : Fin 2048) (R : Fin 16384) (hR : R.val = t.val * 1024 + p.val) :
    iblk m c 0 t (ix2 p k) = V m c main_v0 (ix2 R k) := by
  obtain ⟨e00, e01, -, -, -, -, -, -⟩ := block_indices t
  show V m c main_v0 (((cfg0.win 0).blk t).view.emb (ix2 p k)) = V m c main_v0 (ix2 R k)
  have e : ((cfg0.win 0).blk t).view.emb (ix2 p k) = ix2 R k := by
    funext a; apply Fin.ext
    match a with
    | ⟨0, _⟩ => show win0_0.index t (0 : Fin 2) * 1024 + 1 * p.val = R.val; omega
    | ⟨1, _⟩ => show win0_0.index t (1 : Fin 2) * 2048 + 1 * k.val = k.val; omega
  rw [e]

/-- B is staged whole at every point. -/
theorem read_b (c : Dev nD) (t : Fin cfg0.N) (r : Fin 16) (k : Fin 2048) :
    iblk m c 1 t (ix2 r k) = V m c main_arg2 (ix2 r k) := by
  obtain ⟨-, -, e10, e11, -, -, -, -⟩ := block_indices t
  show V m c main_arg2 (((cfg0.win 1).blk t).view.emb (ix2 r k)) = V m c main_arg2 (ix2 r k)
  have e : ((cfg0.win 1).blk t).view.emb (ix2 r k) = ix2 r k := by
    funext a; apply Fin.ext
    match a with
    | ⟨0, _⟩ => show win0_1.index t (0 : Fin 2) * 16 + 1 * r.val = r.val; omega
    | ⟨1, _⟩ => show win0_1.index t (1 : Fin 2) * 2048 + 1 * k.val = k.val; omega
  rw [e]

/-- Aᵀ is staged whole at every point. -/
theorem read_at (c : Dev nD) (t : Fin cfg0.N) (r : Fin 16) (q : Fin 2048) :
    iblk m c 2 t (ix2 r q) = V m c main_v1 (ix2 r q) := by
  obtain ⟨-, -, -, -, e20, e21, -, -⟩ := block_indices t
  show V m c main_v1 (((cfg0.win 2).blk t).view.emb (ix2 r q)) = V m c main_v1 (ix2 r q)
  have e : ((cfg0.win 2).blk t).view.emb (ix2 r q) = ix2 r q := by
    funext a; apply Fin.ext
    match a with
    | ⟨0, _⟩ => show win0_2.index t (0 : Fin 2) * 16 + 1 * r.val = r.val; omega
    | ⟨1, _⟩ => show win0_2.index t (1 : Fin 2) * 2048 + 1 * q.val = q.val; omega
  rw [e]

/-- What point t writes back is its block of rows of `rows` of the arrays the region finds. -/
theorem flushed_rows (c : Dev nD) (t : Fin cfg0.N) :
    (dats m 0 c).flushed 3 t = ((cfg0.win 3).blk t).view.read (Elt Ideal)
      (rows (V m c main_v0) (V m c main_arg2) (V m c main_v1)) := by
  show (cfg0.win 3).cut (grid0.coords t) ((dats m 0 c).after 3 t) = _
  rw [after0_3]
  unfold out0_3
  rw [View.canon_unit_zero zeros]
  simp only [View.ld_unit_zero (S := S1024x2048) zeros, View.ld_unit_zero (S := S16x2048) zeros]
  obtain ⟨-, -, -, -, -, -, e30, e31⟩ := block_indices t
  have ht : t.val < 16 := lt_of_lt_of_eq t.isLt N_0
  funext j
  obtain ⟨p, q, rfl⟩ : ∃ (p : Fin 1024) (q : Fin 2048), j = ix2 p q := ⟨j 0, j 1, eq_ix2 j⟩
  have hp := p.isLt
  let R : Fin 16384 := ⟨t.val * 1024 + p.val, by omega⟩
  have eo : ((cfg0.win 3).blk t).view.emb (ix2 p q) = ix2 R q := by
    funext a; apply Fin.ext
    match a with
    | ⟨0, _⟩ => show win0_3.index t (0 : Fin 2) * 1024 + 1 * p.val = t.val * 1024 + p.val; omega
    | ⟨1, _⟩ => show win0_3.index t (1 : Fin 2) * 2048 + 1 * q.val = q.val; omega
  show k0_pay1 (iblk m c 0 t) (iblk m c 1 t) (iblk m c 2 t) (ix2 p q)
    = rows (V m c main_v0) (V m c main_arg2) (V m c main_v1) (((cfg0.win 3).blk t).view.emb (ix2 p q))
  rw [eo, Body.stored_apply (iblk m c 0 t) (iblk m c 1 t) (iblk m c 2 t) p q]
  unfold rows
  refine Finset.sum_congr rfl fun r _ => ?_
  rw [read_at m c t r q]
  refine congrArg (· * V m c main_v1 (ix2 r q)) ?_
  refine Finset.sum_congr rfl fun k _ => ?_
  rw [read_x m c t p k R rfl, read_b m c t r k]

/-- An index of the flattened result is in point t's block iff each coordinate is in the block's range on its axis. -/
theorem mem_block (t : Fin cfg0.N) (i : S16384x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v2).slice (win0_3.rect t)).set ↔ _
  rw [View.set_slice_whole, Rect.mem_set_unit]
  exact Iff.rfl

/-- Every row of the flattened result is written back by some point: row R by point R / 1024. -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : (i 0).val / 1024 < cfg0.N := by
    show (i 0).val / 1024 < grid0.N
    rw [N_0]; omega
  obtain ⟨-, -, -, -, -, -, e30, e31⟩ := block_indices ⟨(i 0).val / 1024, hN⟩
  have e30' : win0_3.index ⟨(i 0).val / 1024, hN⟩ (0 : Fin 2) = (i 0).val / 1024 := e30
  refine ⟨⟨(i 0).val / 1024, hN⟩, flush0_3 _, ?_⟩
  rw [mem_block]
  intro a
  match a with
  | ⟨0, _⟩ =>
    show win0_3.index ⟨(i 0).val / 1024, hN⟩ (0 : Fin 2) * 1024 ≤ (i 0).val
      ∧ (i 0).val < win0_3.index ⟨(i 0).val / 1024, hN⟩ (0 : Fin 2) * 1024 + 1024
    omega
  | ⟨1, _⟩ =>
    show win0_3.index ⟨(i 0).val / 1024, hN⟩ (1 : Fin 2) * 2048 ≤ (i 1).val
      ∧ (i 1).val < win0_3.index ⟨(i 0).val / 1024, hN⟩ (1 : Fin 2) * 2048 + 2048
    omega

/-- After the region the flattened result array is `rows` of the arrays the region found. -/
theorem final_rows (c : Dev nD) :
    (dats m 0 c).arrAt 3 cfg0.N = rows (V m c main_v0) (V m c main_arg2) (V m c main_v1) :=
  (dats m 0 c).arrAt_eq_of_cover 3 _ (fun t _ => flushed_rows m c t) covered

/-- The flattened h the region finds is the launch h reshaped. -/
theorem found_x (c : Dev nD) : (V m c main_v0 : S16384x2048.Idx → EReal)
    = shapeCast S16384x2048 (m ((c : Thread nD τ).loc main_arg0)) shapeCasts_S4x4096x2048_S16384x2048 := by
  show StableHlo.after hostOps0 (fun b => m (c, b)) (Proc.devRef .tc main_v0) = _
  after_results
  rfl

/-- The Aᵀ the region finds is the launch A transposed. -/
theorem found_at (c : Dev nD) : (V m c main_v1 : S16x2048.Idx → EReal)
    = transpose S16x2048 [1, 0] (m ((c : Thread nD τ).loc main_arg1)) transposes_S2048x16_S16x2048_1_0 := by
  show StableHlo.after hostOps0 (fun b => m (c, b)) (Proc.devRef .tc main_v1) = _
  after_results

/-- The program's result buffer after the host line that follows the region: the flattened result reshaped. -/
theorem result_eq (c : Dev nD) :
    Pipeline.afterTail₀ cfgs (dats m) 0 (V0 m) [hostOps1] c main_v3
      = shapeCast S4x4096x2048 (rows (V m c main_v0) (V m c main_arg2) (V m c main_v1)) shapeCasts_S16384x2048_S4x4096x2048 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = rows (V m c main_v0) (V m c main_arg2) (V m c main_v1) :=
    (Pipeline.withArrays_arr spec0 launch0.win.arr_inj c _ _ 3).trans (final_rows m c)
  exact congrArg (fun z : S16384x2048.Idx → EReal => shapeCast S4x4096x2048 z shapeCasts_S16384x2048_S4x4096x2048) e

/-- The kernel's run, read: every weakly fair execution terminates with the result buffer at the bottleneck grouping
    of the launch arrays, and the three argument arrays as launched. -/
theorem run : θ_run defs (onTc (τ := τ) (main (F := Ideal))) ⟨m, fun _ => 0, ρ⟩ fun r => ∀ c : Dev nD,
      r.2.mem ((c : Thread nD τ).loc main_v3) = Cert.LowRank.throughRank (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v3 (Pipeline.mem_restRefs_of main_v3 (by decide) (by decide))).trans
        ((result_eq m c).trans (by
          rw [found_x m c, found_at m c, V_main_arg2 m c]
          exact reshaped_rows _ _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Rows

end
-- ==== Proof.RefSide.lean ====
/-
  The reference at an index. Its two host products, read entry by entry, are
      W (d, e) = ∑ r, A (d, r) * B (r, e)          and          out (b, s, e) = ∑ k, h (b, s, k) * W (e, k),
  so the reference's result array is the dense grouping of the low-rank adapter map.
-/
import proofs.«105709_j47991964566282_2_alg».proof.Proof.Gen.ReferenceIdeal.Read
import proofs.«105709_j47991964566282_2_alg».proof.Proof.LowRank

noncomputable section

open scoped BigOperators
open Idealize.ShloMosaic Idealize.ShloMosaic.ValueIdx

namespace Cert.ReferenceIdeal.RefValue

open Cert.ReferenceIdeal Cert.ReferenceIdeal.Read

/-- The reference's result is the dense grouping: entry (b, s, e) contracts h (b, s, ·) with row e of A · B. -/
theorem result_eq_dense (h : (⟨S4x4096x2048, .f32⟩ : BufTy).Contents (Elt Ideal)) (A : (⟨S2048x16, .f32⟩ : BufTy).Contents (Elt Ideal))
    (B : (⟨S16x2048, .f32⟩ : BufTy).Contents (Elt Ideal)) :
    val_main_v1 (F := Ideal) h A B = Cert.LowRank.dense h A B := by
  funext i
  rw [val_main_v1_apply]
  unfold Cert.LowRank.dense
  refine Finset.sum_congr rfl fun k _ => ?_
  rw [val_main_v0_apply]
  have e1 : lidx_main_v1 i k = ix3 (i 0) (i 1) k := funext fun a => Fin.ext (by
    match a with
    | ⟨0, _⟩ => rfl
    | ⟨1, _⟩ => rfl
    | ⟨2, _⟩ => rfl)
  rw [e1]
  congr 1
  refine Finset.sum_congr rfl fun r _ => ?_
  have e2 : lidx_main_v0 (ridx_main_v1 i k) r = ix2 (i 2) r := funext fun a => Fin.ext (by
    match a with
    | ⟨0, _⟩ => rfl
    | ⟨1, _⟩ => rfl)
  have e3 : ridx_main_v0 (ridx_main_v1 i k) r = ix2 r k := funext fun a => Fin.ext (by
    match a with
    | ⟨0, _⟩ => rfl
    | ⟨1, _⟩ => rfl)
  rw [e2, e3]
  rfl

end Cert.ReferenceIdeal.RefValue

end
-- ==== Proof.LibFiniteInputs.lean ====
/-
  Finite inputs are real numbers.  A precondition of the form  all (|x| < +∞)  evaluates, at the extended reals, the
  conjunction over all entries of an array  x  of  max x (-x) < ⊤ : the binary32 word 0x7F800000 denotes ⊤, and
  max x (-x) < ⊤  excludes  x = ⊤  and  x = ⊥ .  So when the conjunction (a reduction by "and" into a scalar, from the
  constant true) comes out 1, every entry of  x  is the image of a real number.  Stated for an array of any shape.
-/
import Idealize.ShloMosaic.Lib.ReduceAll
import Idealize.ShloMosaic.Lib.IdealHost
import Idealize.ShloMosaic.Lib.ValueIdx
import proofs.«105709_j47991964566282_2_alg».proof.Proof.LibRealValued

noncomputable section

namespace Cert.Lib.FiniteInputs

open Idealize.ShloMosaic Idealize.ShloMosaic.ValueIdx Cert.RealValued

/-- A rank-0 array has one index. -/
instance subsingleton_scalar_idx : Subsingleton (⟨0, ![]⟩ : Shape).Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is below ⊤ is neither infinity: it is a real number. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

/-- On one value: the comparison |x| < +∞ came out 1, so x is a real number. -/
theorem isReal_of_cmp (x : Ideal .f32)
    (h : FloatOps.cmpf .olt (FloatOps.hostAbsf x) (Ideal.ofBits .f32 0x7F800000#32) = 1#1) : IsReal x := by
  rw [inf_word] at h
  apply isReal_of_abs_lt_top
  by_contra hn
  have : FloatOps.cmpf .olt (FloatOps.hostAbsf x) (⊤ : EReal) = 0#1 := by
    show Ideal.cmp .olt (max (x : EReal) (-(x : EReal))) ⊤ = 0#1
    unfold Ideal.cmp
    simp [hn]
  rw [this] at h
  exact absurd h (by decide)

/-- The conjunction over all entries of |x| < +∞ (a reduction by "and" into a scalar) came out 1: every entry
    of x is a real number. -/
theorem all_lt_inf {s : Shape} {axes : List (Fin s.rank)} (x : FVec Ideal s .f32)
    (hb : (⟨0, ![]⟩ : Shape).BroadcastsInDim s (![] : Fin 0 → Fin s.rank)) (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
          (constantI (⟨0, ![]⟩ : Shape) 1 1#1) hr hu j = 1#1) (i : s.Idx) : IsReal (x i) := by
  have hi := Host.reduce_andi_all _ _ hr hu j e i
  rw [cmpf_apply, broadcastInDim_scalar_apply, constant_apply] at hi
  exact isReal_of_cmp (x i) hi

end Cert.Lib.FiniteInputs

end
-- ==== Proof.Finite.lean ====
/-
  From the precondition to real entries. The precondition is the conjunction, over the three inputs h, A and B, of
  "every entry has absolute value below +∞"; when it evaluates to 1 each conjunct does, so every entry of every input
  is a real number.
-/
import proofs.«105709_j47991964566282_2_alg».proof.Pre_finite_inputs
import proofs.«105709_j47991964566282_2_alg».proof.Proof.LibFiniteInputs

noncomputable section

open Idealize.ShloMosaic Cert.RealValued Cert.Lib.FiniteInputs

namespace Cert.FiniteEntries

open Cert.Pre_finite_inputs

/-- Under the precondition every entry of h, of A and of B is a real number. -/
theorem real_entries [Cert.Pre_finite_inputs.Facts] (h : FVec Ideal S4x4096x2048 .f32) (A : FVec Ideal S2048x16 .f32)
    (B : FVec Ideal S16x2048 .f32) (hp : Cert.Pre_finite_inputs.fn (F := Ideal) h A B = fun _ => 1#1) :
    (∀ i, IsReal (h i)) ∧ (∀ i, IsReal (A i)) ∧ (∀ i, IsReal (B i)) := by
  have h0 := congrFun hp ValueIdx.ix0
  dsimp only [Cert.Pre_finite_inputs.fn, andi] at h0
  obtain ⟨h12, h3⟩ := IntOp.andi_eq_one.1 h0
  obtain ⟨h1, h2⟩ := IntOp.andi_eq_one.1 h12
  exact ⟨all_lt_inf h _ _ _ _ h1, all_lt_inf A _ _ _ _ h2, all_lt_inf B _ _ _ _ h3⟩

end Cert.FiniteEntries

end
-- ==== Proof.lean ====
/- The low-rank adapter forward pass  out = h · (A · B)ᵀ,  h : [4, 4096, 2048], A : [2048, 16], B : [16, 2048].

   The reference forms the dense 2048 × 2048 matrix W = A · B and contracts h with its rows:
       out (b, s, e) = ∑ k, h (b, s, k) * (∑ r, A (e, r) * B (r, k)).
   The kernel flattens h to 16384 rows, and on each block of 1024 rows passes through the rank-16 bottleneck:
       tmp (p, r) = ∑ k, x (p, k) * B (r, k),      out (p, q) = ∑ r, tmp (p, r) * Aᵀ (r, q),
   so after reshaping back
       out (b, s, e) = ∑ r, (∑ k, h (b, s, k) * B (r, k)) * A (e, r).
   Both are the double sum of h (b, s, k) * B (r, k) * A (e, r); passing from one to the other moves a factor across a
   sum and exchanges two finite sums. On the extended reals that needs the entries to be real numbers, which is what
   the precondition (every input entry finite) gives.

   Modules: LibRegroup (the regrouping law for real entries), LowRank (the two groupings, identified by that law),
   RefSide (the reference is the dense grouping),
   Body (the kernel body at an entry), Rows (the flattened result reshaped is the bottleneck grouping),
   KernelSide (blocks of rows, the whole flattened array, the reshape after the region, the run),
   Finite (the precondition gives real entries). The frames of the two kernel programs are the generated ones; the
   reference's frame is its generated run with the result dropped. No operation is rewritten by idealization, so
   that conjunct is trivial. -/
import proofs.«105709_j47991964566282_2_alg».proof.Defs
import proofs.«105709_j47991964566282_2_alg».proof.Proof.Gen.Kernel
import proofs.«105709_j47991964566282_2_alg».proof.Proof.Gen.Kernel.Skeleton
import proofs.«105709_j47991964566282_2_alg».proof.Proof.Gen.Kernel.Launch
import proofs.«105709_j47991964566282_2_alg».proof.Proof.Gen.Kernel.Points
import proofs.«105709_j47991964566282_2_alg».proof.Proof.Gen.Kernel.Frame
import proofs.«105709_j47991964566282_2_alg».proof.Proof.Gen.KernelIdeal
import proofs.«105709_j47991964566282_2_alg».proof.Proof.Gen.KernelIdeal.Skeleton
import proofs.«105709_j47991964566282_2_alg».proof.Proof.Gen.KernelIdeal.Launch
import proofs.«105709_j47991964566282_2_alg».proof.Proof.Gen.KernelIdeal.Points
import proofs.«105709_j47991964566282_2_alg».proof.Proof.Gen.KernelIdeal.Frame
import proofs.«105709_j47991964566282_2_alg».proof.Proof.Gen.ReferenceIdeal
import proofs.«105709_j47991964566282_2_alg».proof.Proof.Gen.Pre_finite_inputs
import proofs.«105709_j47991964566282_2_alg».proof.Proof.Gen.ReferenceIdeal.Run
import proofs.«105709_j47991964566282_2_alg».proof.Proof.Gen.ReferenceIdeal.Read
import proofs.«105709_j47991964566282_2_alg».proof.Proof.KernelSide
import proofs.«105709_j47991964566282_2_alg».proof.Proof.RefSide
import proofs.«105709_j47991964566282_2_alg».proof.Proof.Finite
import Idealize.ShloMosaic.Adequacy
import Idealize.ShloMosaic.Init

noncomputable section

namespace Cert.Proof

open Idealize.ShloMosaic Idealize.SL.Sem

/-- The printed kernel program runs and leaves its arguments as launched. -/
theorem frame_kernel : Cert.frame_Kernel := fun m ρ _ => Cert.Kernel.Gen.frame m ρ

/-- So does the kernel program read on exact numbers. -/
theorem frame_kernelIdeal : Cert.frame_KernelIdeal := fun m ρ _ => Cert.KernelIdeal.Gen.frame m ρ

/-- The reference runs and leaves its arguments as launched: its run, with what it computes dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree and are finite, the kernel ends at the bottleneck grouping and the reference at the dense
    grouping of the same three arrays; on real entries these are one array. -/
theorem algebraic : Cert.algebraic_KernelIdeal_ReferenceIdeal := by
  intro m ρ m' ρ' hpre hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨hh, hA, hB⟩ := Cert.FiniteEntries.real_entries _ _ _ (hpre c)
  rw [Cert.ReferenceIdeal.Read.val_main_v1_eq (F := Ideal), Cert.ReferenceIdeal.RefValue.result_eq_dense,
    (hagree c).1, (hagree c).2.1, (hagree c).2.2]
  exact (Cert.LowRank.throughRank_eq_dense _ _ _ hh hA hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
